-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4096x1024 .f32) (main_arg1 : FVec F S1024x1024 .f32) (main_arg2 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4096x1024 : Shape := ⟨3, ![8, 4096, 1024]⟩
abbrev S1024x1024 : Shape := ⟨2, ![1024, 1024]⟩
abbrev S1024 : Shape := ⟨1, ![1024]⟩
abbrev S32768x1024 : Shape := ⟨2, ![32768, 1024]⟩
abbrev S_ : Shape := ⟨0, ![]⟩
abbrev S1024x1 : Shape := ⟨2, ![1024, 1]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 41
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .bf16⟩
  | .hbm, ⟨38, _⟩ => ⟨S1x1024, .f32⟩
  | .hbm, ⟨39, _⟩ => ⟨S32768x1024, .f32⟩
  | .hbm, ⟨40, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v4 : BitVec 32 := Scalar.muli c0_i32 c256_i32
  v4
def k0_off1 (c0_i32 : BitVec 32) : Fin 2 → Nat :=
  let c256_i32 : BitVec 32 := 256#32
  let v4 : BitVec 32 := Scalar.muli c0_i32 c256_i32
  let v5 : BitVec 32 := v4
  let v6 : Index := Scalar.indexCast v5
  let c0_3 : Index := 0#32
  ![v6.toNat, 0]
def k0_mult2 : BitVec 32 :=
  let c1_i32 : BitVec 32 := 1#32
  let c256_i32_13 : BitVec 32 := 256#32
  let v43 : BitVec 32 := Scalar.muli c1_i32 c256_i32_13
  v43
def k0_mult3 : BitVec 32 :=
  let c2_i32 : BitVec 32 := 2#32
  let c256_i32_25 : BitVec 32 := 256#32
  let v82 : BitVec 32 := Scalar.muli c2_i32 c256_i32_25
  v82
def k0_mult4 : BitVec 32 :=
  let c3_i32 : BitVec 32 := 3#32
  let c256_i32_37 : BitVec 32 := 256#32
  let v121 : BitVec 32 := Scalar.muli c3_i32 c256_i32_37
  v121
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x1024_S32768x1024 : S8x4096x1024.ShapeCasts S32768x1024
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  shapeCasts_S32768x1024_S8x4096x1024 : S32768x1024.ShapeCasts S8x4096x1024
  dot_S256x1024_S1024x1024_S256x1024_1_1_0_0_n_n_wf : DotDims.WF S256x1024 S1024x1024 S256x1024 [1] [1] [0] [0] [] []
  hrank0 : 0 < grid0.rank
  k0_mult1_dvd : 256 ∣ k0_mult1.toNat
  k0_off1_inb : ∀ (r : Fin 4), ∀ a, (k0_off1 (BitVec.ofNat 32 r.val)) a + S256x1024.size a ≤ S1024x1024.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S1x1x1024, .f32⟩
  | .hbm, ⟨79, _⟩ => ⟨S8x4096x1024, .f32⟩
  | .hbm, ⟨80, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_cst_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_cst_10 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  reducesTo_S8x4096x1024_S8x4096_d2 : S8x4096x1024.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Quant.lean ====
/-
  Uniform affine fake quantisation of one row on the extended reals.

  A row `f` is mapped onto a grid of `q` levels between its minimum `lo` and its maximum `hi`: the grid's step is
  `s = max (hi - lo) e / q` (`e` a positive floor for the spread), the zero point is `z = round (-lo / s)`, and an entry `x`
  becomes `(clamp (round (x / s) + z) - z) * s`, the clamp to `[0, q]`, the rounding to nearest with ties to even.
  Two other spellings of the same value occur: `x * (1 / s)` for `x / s`, which is the same extended real whenever `s ≠ 0`,
  and `a + (round a - a)` for `round a`, which is the same whenever `a` is finite — and `a = x / s` is finite as soon as
  `x` is, whatever `s ≠ 0` is (the inverse of an infinity is `0`). The step is positive, hence not `0`, for every row.
-/
import Idealize.ShloMosaic.PureOps.Ideal
import Mathlib.Data.Finset.Fold

noncomputable section

namespace Cert.Quant

open Idealize.ShloMosaic

/-- Round to the nearest integer, ties to even; the infinities stay. -/
abbrev rnd (a : EReal) : EReal := Ideal.liftRound Ideal.roundHalfEven a

/-- The grid's step: the spread `hi - lo`, at least `e`, over the number of levels `q`. -/
def step (lo hi e q : EReal) : EReal := Ideal.div (max (hi - lo) e) q

/-- The zero point: the level `lo` is sent to. -/
def zero (lo s : EReal) : EReal := rnd (Ideal.div (-lo) s)

/-- The entry `x` rounded onto the grid: its level, clamped to `[0, q]`, read back as a value. -/
def deq (x lo s q : EReal) : EReal := (min q (max 0 (rnd (Ideal.div x s) + zero lo s)) - zero lo s) * s

/-- A row's minimum and maximum, as folds from the top and the bottom element. -/
def rowMin {n : ℕ} (f : Fin n → EReal) : EReal := (Finset.univ : Finset (Fin n)).fold min ⊤ f
def rowMax {n : ℕ} (f : Fin n → EReal) : EReal := (Finset.univ : Finset (Fin n)).fold max ⊥ f

/-- The row `f` on the grid of `q` levels, entry `d`. -/
def quantRow (e q : EReal) {n : ℕ} (f : Fin n → EReal) (d : Fin n) : EReal :=
  deq (f d) (rowMin f) (step (rowMin f) (rowMax f) e q) q

/-- The product with the reciprocal is the quotient, off a zero divisor. -/
theorem mul_one_div (x s : EReal) (hs : s ≠ 0) : x * Ideal.div 1 s = Ideal.div x s := by
  rw [Ideal.div, Ideal.div, if_neg hs, if_neg hs, one_mul]

/-- Subtracting from zero is negating. -/
theorem zero_sub_eq (a : EReal) : 0 - a = -a := by rw [sub_eq_add_neg, zero_add]

/-- A finite entry over a nonzero step is finite (an infinite step gives `0`). -/
theorem div_coe_finite (x : ℝ) (s : EReal) (hs : s ≠ 0) : ∃ a : ℝ, Ideal.div (x : EReal) s = (a : EReal) := by
  rw [Ideal.div, if_neg hs]
  induction s using EReal.rec with
  | bot => exact ⟨0, by simp⟩
  | top => exact ⟨0, by simp⟩
  | coe r => exact ⟨x * r⁻¹, by rw [← EReal.coe_inv, ← EReal.coe_mul]⟩

/-- Adding back what was taken off a finite value. -/
theorem add_sub_cancel_coe (a : ℝ) (r : EReal) : (a : EReal) + (r - (a : EReal)) = r := by
  induction r using EReal.rec with
  | bot => simp
  | top => simp
  | coe r => rw [← EReal.coe_sub, ← EReal.coe_add]; congr 1; ring

/-- The straight-through spelling of the rounding, `a + (round a - a)`, is the rounding, at a finite entry over a
    nonzero step. -/
theorem ste_div (x : ℝ) (s : EReal) (hs : s ≠ 0) :
    Ideal.div (x : EReal) s + (rnd (Ideal.div (x : EReal) s) - Ideal.div (x : EReal) s) = rnd (Ideal.div (x : EReal) s) := by
  obtain ⟨a, ha⟩ := div_coe_finite x s hs
  rw [ha]; exact add_sub_cancel_coe a _

/-- The step is positive: the spread is at least the positive floor, and the number of levels is a positive real. -/
theorem step_pos (lo hi : EReal) {e q : ℝ} (he : 0 < e) (hq : 0 < q) : 0 < step lo hi (e : EReal) (q : EReal) := by
  unfold step
  rw [Ideal.div_coe hq.ne']
  have h1 : (0 : EReal) < max (hi - lo) (e : EReal) := lt_max_of_lt_right (by exact_mod_cast he)
  have h2 : (0 : EReal) < ((1 / q : ℝ) : EReal) := by exact_mod_cast (one_div_pos.mpr hq)
  exact EReal.mul_pos h1 h2

theorem step_ne_zero (lo hi : EReal) {e q : ℝ} (he : 0 < e) (hq : 0 < q) : step lo hi (e : EReal) (q : EReal) ≠ 0 :=
  (step_pos lo hi he hq).ne'

/-- The minimum of a nonempty row of finite entries is finite. -/
theorem rowMin_finite {n : ℕ} (hn : 0 < n) (f : Fin n → EReal) (hf : ∀ k, ∃ r : ℝ, f k = (r : EReal)) :
    ∃ r : ℝ, rowMin f = (r : EReal) := by
  have h1 : ⊥ < (Finset.univ : Finset (Fin n)).fold min ⊤ f := (Finset.lt_fold_min _).mpr ⟨bot_lt_top, fun k _ => by
    obtain ⟨r, hr⟩ := hf k; rw [hr]; exact EReal.bot_lt_coe r⟩
  have h2 : (Finset.univ : Finset (Fin n)).fold min ⊤ f < ⊤ := (Finset.fold_min_lt _).mpr (Or.inr ⟨⟨0, hn⟩, Finset.mem_univ _, by
    obtain ⟨r, hr⟩ := hf ⟨0, hn⟩; rw [hr]; exact EReal.coe_lt_top r⟩)
  exact ⟨(rowMin f).toReal, (EReal.coe_toReal h2.ne h1.ne').symm⟩

/-- The zero point spelled straight through, from a finite minimum. -/
theorem ste_zero (lo : ℝ) (s : EReal) (hs : s ≠ 0) :
    Ideal.div (-(lo : EReal)) s + (rnd (Ideal.div (-(lo : EReal)) s) - Ideal.div (-(lo : EReal)) s) = zero (lo : EReal) s := by
  rw [← EReal.coe_neg]; exact ste_div (-lo) s hs

end Cert.Quant

end
-- ==== Proof.Spec.lean ====
/-
  What both programs compute, as one function of the three argument arrays, index by index on the extended reals.

  Every row of the activations `x` (a token's 1024 features) and every row of the weights `w` (an output channel's 1024
  input features) is put on a uniform grid between its own minimum and maximum — 255 levels for a token, 15 for a
  channel (`Quant.quantRow`) — and the result at (batch, token, channel) is the inner product over the features of the
  two quantised rows, plus the channel's bias. `region` is the same inner product for activations given as a flat
  [32768, 1024] array of tokens, weights already quantised, and the bias as one row.
-/
import proofs.«174359_j335007449411_2_alg».proof.Proof.Quant
import Idealize.ShloMosaic.Lib.ValueIdx

noncomputable section

namespace Cert.Spec

open Idealize.ShloMosaic Idealize.ShloMosaic.ValueIdx Cert.Quant

/-- The floor of a row's spread, and the two level counts, as the programs spell them. -/
abbrev eps : EReal := Ideal.ofBits .f32 0x3727C5AC#32
abbrev q255 : EReal := Ideal.ofBits .f32 0x437F0000#32
abbrev q15 : EReal := Ideal.ofBits .f32 0x41700000#32

/-- Row `r` of an array of 1024-entry rows. -/
def row2 {R : ℕ} (x : (⟨2, ![R, 1024]⟩ : Shape).Idx → EReal) (r : Fin R) : Fin 1024 → EReal := fun d => x (ix2 r d)

/-- Token (b, s) of the activations. -/
def row3 (x : (⟨3, ![8, 4096, 1024]⟩ : Shape).Idx → EReal) (b : Fin 8) (s : Fin 4096) : Fin 1024 → EReal :=
  fun d => x (ix3 b s d)

/-- The weights, each output channel's row on its 15-level grid. -/
def wq (w : (⟨2, ![1024, 1024]⟩ : Shape).Idx → EReal) : (⟨2, ![1024, 1024]⟩ : Shape).Idx → EReal :=
  fun i => quantRow eps q15 (row2 w (i 0)) (i 1)

/-- The flat product: token `i 0` on its 255-level grid against channel `i 1` of weights given quantised, plus the
    bias row's entry. -/
def region (x : (⟨2, ![32768, 1024]⟩ : Shape).Idx → EReal) (v : (⟨2, ![1024, 1024]⟩ : Shape).Idx → EReal)
    (b : (⟨2, ![1, 1024]⟩ : Shape).Idx → EReal) : (⟨2, ![32768, 1024]⟩ : Shape).Idx → EReal :=
  fun i => (∑ d : Fin 1024, quantRow eps q255 (row2 x (i 0)) d * v (ix2 (i 1) d)) + b (ix2 0 (i 1))

/-- The result at (batch, token, channel). -/
def G (x : (⟨3, ![8, 4096, 1024]⟩ : Shape).Idx → EReal) (w : (⟨2, ![1024, 1024]⟩ : Shape).Idx → EReal)
    (b : (⟨1, ![1024]⟩ : Shape).Idx → EReal) : (⟨3, ![8, 4096, 1024]⟩ : Shape).Idx → EReal :=
  fun i => (∑ d : Fin 1024, quantRow eps q255 (row3 x (i 0) (i 1)) d * quantRow eps q15 (row2 w (i 2)) d) + b (ix1 (i 2))

end Cert.Spec

end
-- ==== Proof.Consts.lean ====
/-
  The float constants the two programs spell, as the extended reals their patterns denote: the two infinities the
  row minimum and maximum start from, zero, one, the two level counts 15 and 255, and the floor of a row's spread.
-/
import Idealize.ShloMosaic.PureOps.Ideal

noncomputable section

namespace Cert.Consts

open Idealize.ShloMosaic

/-- The pattern of `+inf` denotes the top element. -/
theorem ofBits_pinf : Ideal.ofBits .f32 0x7F800000#32 = ⊤ := by
  simp [Ideal.ofBits, Ideal.ieee]

/-- The pattern of `-inf` denotes the bottom element. -/
theorem ofBits_ninf : Ideal.ofBits .f32 0xFF800000#32 = ⊥ := by
  simp [Ideal.ofBits, Ideal.ieee]

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `255.0`, the number of levels of an eight-bit grid, denotes the real `255`. -/
theorem ofBits_255 : Ideal.ofBits .f32 0x437F0000#32 = ((255 : ℝ) : EReal) := by
  simp [Ideal.ofBits, Ideal.ieee, -EReal.coe_mul]; norm_num

/-- `15.0`, the number of levels of a four-bit grid, denotes the real `15`. -/
theorem ofBits_15 : Ideal.ofBits .f32 0x41700000#32 = ((15 : ℝ) : EReal) := by
  simp [Ideal.ofBits, Ideal.ieee, -EReal.coe_mul]; norm_num

/-- The floor of a row's spread (the float nearest `1e-5`) denotes a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  positivity

end Cert.Consts

end
-- ==== Proof.StepFacts.lean ====
/-
  The grid's step is never zero, for either level count: the spread is floored by a positive real and divided by a
  positive real (`Quant.step_pos`, with the floor and the level counts read as the reals their patterns denote).
-/
import proofs.«174359_j335007449411_2_alg».proof.Proof.Spec
import proofs.«174359_j335007449411_2_alg».proof.Proof.Consts

noncomputable section

namespace Cert.Spec

open Idealize.ShloMosaic Cert.Quant

theorem step255_ne_zero (lo hi : EReal) : step lo hi eps q255 ≠ 0 := by
  obtain ⟨e, he, hee⟩ := Consts.ofBits_eps
  rw [show eps = (e : EReal) from hee, show q255 = ((255 : ℝ) : EReal) from Consts.ofBits_255]
  exact step_ne_zero lo hi he (by norm_num)

theorem step15_ne_zero (lo hi : EReal) : step lo hi eps q15 ≠ 0 := by
  obtain ⟨e, he, hee⟩ := Consts.ofBits_eps
  rw [show eps = (e : EReal) from hee, show q15 = ((15 : ℝ) : EReal) from Consts.ofBits_15]
  exact step_ne_zero lo hi he (by norm_num)

end Cert.Spec

end
-- ==== Proof.Chunk.lean ====
/-
  One 256-row slice of a block through the kernel body, as named stages.

  The body handles a [1024, 1024] block of tokens as four slices of 256 rows, each by the same arithmetic: every row's
  minimum and maximum (`lo`, `hi`), its step `st = max (hi - lo) eps / 255`, the step's reciprocal `inv`, the zero point
  `zp = round ((0 - lo) * inv)`, the row on its grid `xq = (clamp (round (x * inv) + zp) - zp) * st`, and the slice's result
  `chunk`: the product of `xq` with the quantised weights, contracted over the features, plus the bias row. Each of
  the body's four stored values is `chunk` of its slice, by unfolding. The second half reads each stage at an index on
  the extended reals: `xq` is `Quant.quantRow` of the row (the product with the reciprocal is the quotient, the
  step not being zero), and `chunk` at (p, q) is the inner product of row `p` on its grid with row `q` of the
  weights, plus the bias at `q`.
-/
import proofs.«174359_j335007449411_2_alg».proof.Proof.Gen.KernelIdeal.Skeleton
import proofs.«174359_j335007449411_2_alg».proof.Proof.StepFacts
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx Cert.Quant Cert.Spec

section Stages

variable {F : FTy → Type} [FloatOps F]

/-- Each row's minimum, as a column. -/
def lo (X : FVec F S256x1024 .f32) : FVec F S256x1 .f32 :=
  shapeCast S256x1 (multiReduction .minimumf [1] S256 X 0x7F800000#32 reduces_S256x1024_S256 (.inl rfl) rfl) shapeCasts_S256_S256x1

/-- Each row's maximum, as a column. -/
def hi (X : FVec F S256x1024 .f32) : FVec F S256x1 .f32 :=
  shapeCast S256x1 (multiReduction .maximumf [1] S256 X 0xFF800000#32 reduces_S256x1024_S256 (.inl rfl) rfl) shapeCasts_S256_S256x1

/-- Each row's step. -/
def st (X : FVec F S256x1024 .f32) : FVec F S256x1 .f32 :=
  divf (maximumf (subf (hi X) (lo X)) (broadcast S256x1 (Scalar.ofBits .f32 0x3727C5AC#32)))
    (broadcast S256x1 (Scalar.ofBits .f32 0x437F0000#32))

/-- The step's reciprocal. -/
def inv (X : FVec F S256x1024 .f32) : FVec F S256x1 .f32 :=
  divf (broadcast S256x1 (Scalar.ofBits .f32 0x3F800000#32)) (st X)

/-- Each row's zero point. -/
def zp (X : FVec F S256x1024 .f32) : FVec F S256x1 .f32 :=
  roundeven (mulf (subf (broadcast S256x1 (Scalar.ofBits .f32 0x00000000#32)) (lo X)) (inv X))

/-- The slice on its rows' grids. -/
def xq (X : FVec F S256x1024 .f32) : FVec F S256x1024 .f32 :=
  mulf (subf (minimumf (broadcast S256x1024 (Scalar.ofBits .f32 0x437F0000#32))
      (maximumf (broadcast S256x1024 (Scalar.ofBits .f32 0x00000000#32))
        (addf (roundeven (mulf X (broadcastTo S256x1024 (inv X) broadcasts_S256x1_S256x1024)))
          (broadcastTo S256x1024 (zp X) broadcasts_S256x1_S256x1024))))
      (broadcastTo S256x1024 (zp X) broadcasts_S256x1_S256x1024))
    (broadcastTo S256x1024 (st X) broadcasts_S256x1_S256x1024)

/-- The slice's result. -/
def chunk (w : FVec F S1024x1024 .bf16) (b : FVec F S1x1024 .f32) (X : FVec F S256x1024 .f32) : FVec F S256x1024 .f32 :=
  addf (matmul dot_S256x1024_S1024x1024_S256x1024_1_1_0_0_n_n none (truncf .bf16 (xq X) bitsLt_bf16_f32) w (constant S256x1024 .f32 0x00000000#32))
    (broadcastTo S256x1024 b broadcasts_S1x1024_S256x1024)

/-- The four stored values are `chunk` of their slices. -/
theorem pay5_eq (v1 : FVec F S1024x1024 .bf16) (v3 : FVec F S1x1024 .f32) (v46 : Vec F S256x1024 .f32) :
    k0_pay5 v1 v3 v46 = chunk v1 v3 (shapeCast S256x1024 v46 shapeCasts_S256x1024_S256x1024) := rfl

theorem pay6_eq (v1 : FVec F S1024x1024 .bf16) (v3 : FVec F S1x1024 .f32) (v85 : Vec F S256x1024 .f32) :
    k0_pay6 v1 v3 v85 = chunk v1 v3 (shapeCast S256x1024 v85 shapeCasts_S256x1024_S256x1024) := rfl

theorem pay4_eq (v0 : Vec F S1024x1024 .bf16) (v2 : Vec F S1x1024 .f32) (v7 : Vec F S256x1024 .f32) :
    k0_pay4 v0 v2 v7 = chunk (k0_pay2 v0) (k0_pay3 v2) (shapeCast S256x1024 v7 shapeCasts_S256x1024_S256x1024) := rfl

theorem pay1_eq (v1 : FVec F S1024x1024 .bf16) (v3 : FVec F S1x1024 .f32) (v124 : Vec F S256x1024 .f32) :
    k0_pay1 v1 v3 (k0_pay7 v124) (k0_pay8 v124)
      = chunk v1 v3 (shapeCast S256x1024 v124 shapeCasts_S256x1024_S256x1024) := rfl

end Stages

/-! ## Layout operations at an index -/

/-- A [256] vector cast to a column reads, at (p, 0), the vector at p. -/
theorem col_apply {α : Type} (v : S256.Idx → α) (h : S256.ShapeCasts S256x1) (p : Fin 256) (u : Fin 1) :
    shapeCast S256x1 v h (ix2 p u) = v (ix1 p) :=
  shapeCast_apply v h _ _ (by
    have hu : u.val = 0 := by omega
    rw [Shape.rowMajor_val_one, Shape.rowMajor_val_two]
    show p.val = p.val * 1 + u.val
    omega)

/-- A column broadcast along the rows reads, at (p, q), the column at p. -/
theorem bcol_apply {α : Type} (v : S256x1.Idx → α) (h : S256x1.Broadcasts S256x1024) (p : Fin 256) (q : Fin 1024) :
    broadcastTo S256x1024 v h (ix2 p q) = v (ix2 p 0) :=
  broadcastTo_apply v h _ _ (fun a => match a with
    | ⟨0, _⟩ => by show p.val = if (256 : ℕ) = 1 then 0 else p.val; rw [if_neg (by decide)]
    | ⟨1, _⟩ => by show (0 : ℕ) = if (1 : ℕ) = 1 then 0 else q.val; rw [if_pos rfl])

/-- A row broadcast down the columns reads, at (p, q), the row at q. -/
theorem brow_apply {α : Type} (v : S1x1024.Idx → α) (h : S1x1024.Broadcasts S256x1024) (p : Fin 256) (q : Fin 1024) :
    broadcastTo S256x1024 v h (ix2 p q) = v (ix2 0 q) :=
  broadcastTo_apply v h _ _ (fun a => match a with
    | ⟨0, _⟩ => by show (0 : ℕ) = if (1 : ℕ) = 1 then 0 else p.val; rw [if_pos rfl]
    | ⟨1, _⟩ => by show q.val = if (1024 : ℕ) = 1 then 0 else q.val; rw [if_neg (by decide)])

/-! ## The reductions and the contraction at an index -/

/-- A row's minimum over the features, from the top element. -/
theorem rmin_apply (X : FVec Ideal S256x1024 .f32) (h : S256x1024.Reduces [1] S256) (hφ : FKind.Formats .f32)
    (hacc : (0x7F800000#32 : BitVec 32) = FKind.minimumf.neutral .f32 hφ) (p : Fin 256) :
    multiReduction (F := Ideal) .minimumf [1] S256 X 0x7F800000#32 h hφ hacc (ix1 p)
      = rowMin (fun d : Fin 1024 => X (ix2 p d)) := by
  rw [multiReduction_minimumf_eq_fold]
  refine (h.fold_filter_drop_single _ _ X (ix1 p)).trans ?_
  show (Finset.univ : Finset (Fin 1024)).fold min (Ideal.ofBits .f32 0x7F800000#32) _ = _
  rw [Consts.ofBits_pinf]
  unfold rowMin
  congr 1
  funext d
  exact congrArg X (funext fun a => Fin.ext (by match a with | ⟨0, _⟩ => rfl | ⟨1, _⟩ => rfl))

/-- A row's maximum over the features, from the bottom element. -/
theorem rmax_apply (X : FVec Ideal S256x1024 .f32) (h : S256x1024.Reduces [1] S256) (hφ : FKind.Formats .f32)
    (hacc : (0xFF800000#32 : BitVec 32) = FKind.maximumf.neutral .f32 hφ) (p : Fin 256) :
    multiReduction (F := Ideal) .maximumf [1] S256 X 0xFF800000#32 h hφ hacc (ix1 p)
      = rowMax (fun d : Fin 1024 => X (ix2 p d)) := by
  rw [multiReduction_maximumf_eq_fold]
  refine (h.fold_filter_drop_single _ _ X (ix1 p)).trans ?_
  show (Finset.univ : Finset (Fin 1024)).fold max (Ideal.ofBits .f32 0xFF800000#32) _ = _
  rw [Consts.ofBits_ninf]
  unfold rowMax
  congr 1
  funext d
  exact congrArg X (funext fun a => Fin.ext (by match a with | ⟨0, _⟩ => rfl | ⟨1, _⟩ => rfl))

/-- The left operand's index at output (p, q) and contraction index k: row p. -/
theorem lhs_0 (i : S256x1024.Idx) (k : dot_S256x1024_S1024x1024_S256x1024_1_1_0_0_n_n.contr.Idx) : (dot_S256x1024_S1024x1024_S256x1024_1_1_0_0_n_n.lhsIdx i k 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem lhs_1 (i : S256x1024.Idx) (k : dot_S256x1024_S1024x1024_S256x1024_1_1_0_0_n_n.contr.Idx) : (dot_S256x1024_S1024x1024_S256x1024_1_1_0_0_n_n.lhsIdx i k 1).val = (k ⟨0, by decide⟩).val :=
  dot_S256x1024_S1024x1024_S256x1024_1_1_0_0_n_n.lhsIdx_val_of_single rfl i k
/-- The right operand's index: row q, the output's column. -/
theorem rhs_0 (i : S256x1024.Idx) (k : dot_S256x1024_S1024x1024_S256x1024_1_1_0_0_n_n.contr.Idx) : (dot_S256x1024_S1024x1024_S256x1024_1_1_0_0_n_n.rhsIdx i k 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem rhs_1 (i : S256x1024.Idx) (k : dot_S256x1024_S1024x1024_S256x1024_1_1_0_0_n_n.contr.Idx) : (dot_S256x1024_S1024x1024_S256x1024_1_1_0_0_n_n.rhsIdx i k 1).val = (k ⟨0, by decide⟩).val :=
  dot_S256x1024_S1024x1024_S256x1024_1_1_0_0_n_n.rhsIdx_val_of_single rfl i k

/-- The contraction into a zero accumulator: row p of the left operand against row q of the right one. -/
theorem mm_apply (l : FVec Ideal S256x1024 .bf16) (r : FVec Ideal S1024x1024 .bf16) (p : Fin 256) (q : Fin 1024) :
    matmul (F := Ideal) dot_S256x1024_S1024x1024_S256x1024_1_1_0_0_n_n none l r (constant (F := Ideal) S256x1024 .f32 0x00000000#32) (ix2 p q)
      = ∑ d : Fin 1024, l (ix2 p d) * r (ix2 q d) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-! ## The stages at an index, on the extended reals -/

section AtIdeal

variable (X : FVec Ideal S256x1024 .f32)

theorem lo_apply (p : Fin 256) (u : Fin 1) :
    lo (F := Ideal) X (ix2 p u) = rowMin (fun d : Fin 1024 => X (ix2 p d)) := by
  unfold lo
  rw [col_apply]
  exact rmin_apply X _ _ _ p

theorem hi_apply (p : Fin 256) (u : Fin 1) :
    hi (F := Ideal) X (ix2 p u) = rowMax (fun d : Fin 1024 => X (ix2 p d)) := by
  unfold hi
  rw [col_apply]
  exact rmax_apply X _ _ _ p

theorem st_apply (p : Fin 256) (u : Fin 1) :
    st (F := Ideal) X (ix2 p u)
      = step (rowMin fun d : Fin 1024 => X (ix2 p d)) (rowMax fun d : Fin 1024 => X (ix2 p d)) eps q255 := by
  show Ideal.div (max (hi (F := Ideal) X (ix2 p u) - lo (F := Ideal) X (ix2 p u)) (Ideal.ofBits .f32 0x3727C5AC#32))
    (Ideal.ofBits .f32 0x437F0000#32) = _
  rw [hi_apply, lo_apply]
  rfl

theorem inv_apply (p : Fin 256) (u : Fin 1) :
    inv (F := Ideal) X (ix2 p u)
      = Ideal.div 1 (step (rowMin fun d : Fin 1024 => X (ix2 p d)) (rowMax fun d : Fin 1024 => X (ix2 p d)) eps q255) := by
  show Ideal.div (Ideal.ofBits .f32 0x3F800000#32) (st (F := Ideal) X (ix2 p u)) = _
  rw [st_apply, Consts.ofBits_one]

theorem zp_apply (p : Fin 256) (u : Fin 1) :
    zp (F := Ideal) X (ix2 p u)
      = zero (rowMin fun d : Fin 1024 => X (ix2 p d))
          (step (rowMin fun d : Fin 1024 => X (ix2 p d)) (rowMax fun d : Fin 1024 => X (ix2 p d)) eps q255) := by
  show FloatOps.roundeven (F := Ideal) (φ := .f32) (FloatOps.mulf (F := Ideal) (φ := .f32)
      (FloatOps.subf (F := Ideal) (φ := .f32) (Scalar.ofBits (F := Ideal) .f32 0x00000000#32) (lo (F := Ideal) X (ix2 p u)))
      (inv (F := Ideal) X (ix2 p u))) = _
  rw [lo_apply, inv_apply, show Scalar.ofBits (F := Ideal) .f32 0x00000000#32 = (0 : EReal) from Consts.ofBits_zero]
  simp only [Ideal.roundeven_def, Ideal.mulf_def, Ideal.subf_def]
  rw [zero_sub_eq, mul_one_div _ _ (step255_ne_zero _ _)]
  rfl

/-- The slice on its grid, entry (p, d): row p of the slice on the 255-level grid, entry d. -/
theorem xq_apply (p : Fin 256) (d : Fin 1024) :
    xq (F := Ideal) X (ix2 p d) = quantRow eps q255 (fun d : Fin 1024 => X (ix2 p d)) d := by
  show FloatOps.mulf (F := Ideal) (φ := .f32)
      (FloatOps.subf (F := Ideal) (φ := .f32)
        (FloatOps.minimumf (F := Ideal) (φ := .f32) (Scalar.ofBits (F := Ideal) .f32 0x437F0000#32)
          (FloatOps.maximumf (F := Ideal) (φ := .f32) (Scalar.ofBits (F := Ideal) .f32 0x00000000#32)
            (FloatOps.addf (F := Ideal) (φ := .f32)
              (FloatOps.roundeven (F := Ideal) (φ := .f32) (FloatOps.mulf (F := Ideal) (φ := .f32) (X (ix2 p d))
                (broadcastTo S256x1024 (inv (F := Ideal) X) broadcasts_S256x1_S256x1024 (ix2 p d))))
              (broadcastTo S256x1024 (zp (F := Ideal) X) broadcasts_S256x1_S256x1024 (ix2 p d)))))
        (broadcastTo S256x1024 (zp (F := Ideal) X) broadcasts_S256x1_S256x1024 (ix2 p d)))
      (broadcastTo S256x1024 (st (F := Ideal) X) broadcasts_S256x1_S256x1024 (ix2 p d)) = _
  rw [bcol_apply, bcol_apply, bcol_apply, inv_apply, zp_apply, st_apply,
    show Scalar.ofBits (F := Ideal) .f32 0x00000000#32 = (0 : EReal) from Consts.ofBits_zero]
  simp only [Ideal.roundeven_def, Ideal.mulf_def, Ideal.subf_def, Ideal.minimumf_def, Ideal.maximumf_def, Ideal.addf_def]
  rw [mul_one_div _ _ (step255_ne_zero _ _)]
  rfl

/-- The slice's result, entry (p, q): row p on its grid against row q of the weights, plus the bias at q. -/
theorem chunk_apply (w : FVec Ideal S1024x1024 .bf16) (b : FVec Ideal S1x1024 .f32) (p : Fin 256) (q : Fin 1024) :
    chunk (F := Ideal) w b X (ix2 p q)
      = (∑ d : Fin 1024, quantRow eps q255 (fun d : Fin 1024 => X (ix2 p d)) d * w (ix2 q d)) + b (ix2 0 q) := by
  show matmul (F := Ideal) dot_S256x1024_S1024x1024_S256x1024_1_1_0_0_n_n none (truncf .bf16 (xq (F := Ideal) X) bitsLt_bf16_f32) w
      (constant (F := Ideal) S256x1024 .f32 0x00000000#32) (ix2 p q)
    + broadcastTo S256x1024 b broadcasts_S1x1024_S256x1024 (ix2 p q) = _
  rw [mm_apply, brow_apply]
  congr 1
  refine Finset.sum_congr rfl fun d _ => ?_
  show xq (F := Ideal) X (ix2 p d) * w (ix2 q d) = _
  rw [xq_apply]

end AtIdeal

end Cert.KernelIdeal.Chunk

end
-- ==== Proof.Block.lean ====
/-
  What the kernel body leaves in the output's staging buffer, as one function of its three input blocks.

  The body writes the [1024, 1024] output block as four slices of 256 rows; the slice at row offset `o` is `Chunk.chunk` of
  rows `o … o + 255` of the token block. Every slice restricts ONE function of the block's index — entry (r, q) is row `r`
  of the token block on its 255-level grid against row `q` of the weight block, plus the bias at `q` — so the four
  stores, which tile the block, leave that function.
-/
import proofs.«174359_j335007449411_2_alg».proof.Proof.Gen.KernelIdeal.Frame
import proofs.«174359_j335007449411_2_alg».proof.Proof.Chunk
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Chunk
open Idealize.ShloMosaic Idealize.ShloMosaic.TcCoe Idealize.SL.Sem Idealize.ShloMosaic.ValueIdx Cert.Quant Cert.Spec

/-- The output block: entry (r, q) from row `r` of the token block, row `q` of the weight block, and the bias row. -/
def blockFn (x0 : S1024x1024.Idx → EReal) (x1 : S1024x1024.Idx → EReal) (x2 : S1x1024.Idx → EReal) :
    S1024x1024.Idx → EReal :=
  fun y => (∑ d : Fin 1024, quantRow eps q255 (fun d : Fin 1024 => x0 (ix2 (y 0) d)) d * x1 (ix2 (y 1) d)) + x2 (ix2 0 (y 1))

theorem hz : (![0, 0] : Fin 2 → Nat) = fun _ => 0 := funext fun a => by fin_cases a <;> rfl

/-- The slice stored at row offset `o` restricts the block's function. -/
theorem slice_eq (o : ℕ) (inb : ∀ a, (![o, 0] : Fin 2 → ℕ) a + S256x1024.size a ≤ S1024x1024.size a)
    (x0 : Vec Ideal S1024x1024 .f32) (x1 : Vec Ideal S1024x1024 .bf16) (x2 : Vec Ideal S1x1024 .f32) (x : S256x1024.Idx) :
    chunk (F := Ideal) x1 x2 (View.ld (Val := Elt Ideal) (e' := EltTy.f32) x0 (Rect.unit (s := S1024x1024) ![o, 0] S256x1024.size inb)) x
      = blockFn x0 x1 x2 ((Rect.unit (s := S1024x1024) ![o, 0] S256x1024.size inb).emb x) := by
  obtain ⟨p, q, rfl⟩ : ∃ (p : Fin 256) (q : Fin 1024), x = ix2 p q := ⟨x 0, x 1, eq_ix2 x⟩
  rw [chunk_apply]
  unfold blockFn
  have e1 : ((Rect.unit (s := S1024x1024) ![o, 0] S256x1024.size inb).emb (ix2 p q)) 1 = q := Fin.ext (by
    show 0 + 1 * q.val = q.val; omega)
  have e0 : ∀ d : Fin 1024, (Rect.unit (s := S1024x1024) ![o, 0] S256x1024.size inb).idx (ix2 p d)
      = ix2 (((Rect.unit (s := S1024x1024) ![o, 0] S256x1024.size inb).emb (ix2 p q)) 0) d := fun d => funext fun a => Fin.ext (by
    match a with
    | ⟨0, _⟩ => rfl
    | ⟨1, _⟩ => show 0 + 1 * d.val = d.val; omega)
  rw [e1]
  congr 1
  refine Finset.sum_congr rfl fun d _ => ?_
  congr 2
  funext d'
  show x0 ((Rect.unit (s := S1024x1024) ![o, 0] S256x1024.size inb).idx (ix2 p d')) = _
  rw [e0 d']
  rfl

/-- What the body's four stores leave in the output's staging buffer. -/
theorem out_eq (c : Dev nD) (i : grid0.Coords) (a1 : Memref sig .tc .vmem S1024x1024 .f32) (h1 : a1.IsWhole)
    (a2 : Memref sig .tc .vmem S1024x1024 .bf16) (h2 : a2.IsWhole) (a3 : Memref sig .tc .vmem S1x1024 .f32) (h3 : a3.IsWhole)
    (a4 : Memref sig .tc .vmem S1024x1024 .f32) (h4 : a4.IsWhole)
    (x0 : Vec Ideal S1024x1024 .f32) (x1 : Vec Ideal S1024x1024 .bf16) (x2 : Vec Ideal S1x1024 .f32) :
    out0_A_3 (F := Ideal) c i a1 h1 a2 h2 a3 h3 a4 h4 x0 x1 x2 = blockFn x0 x1 x2 := by
  unfold out0_A_3
  rw [View.read_writes_eq_canon _ _ _ (cover0_A_3 c i a1 h1 a2 h2 a3 h3 a4 h4 x0 x1 x2)]
  funext y
  refine View.canon_apply_of_pieces (blockFn x0 x1 x2) _ ?_ y (cover0_A_3 c i a1 h1 a2 h2 a3 h3 a4 h4 x0 x1 x2 y)
  unfold kernelRun0_A
  dsimp only
  sl_unfold_words
  intro pc hpc
  simp only [List.mem_cons, List.mem_nil_iff, or_false] at hpc
  rcases hpc with rfl | rfl | rfl | rfl
  · intro x
    dsimp only
    rw [pay1_eq]
    simp only [View.readAt_eq_ld, h1.read_unread, h2.read_unread, h3.read_unread, k0_pay2, k0_pay3, shapeCast_self,
      View.ld_unit_zero (S := S1024x1024) hz, View.ld_unit_zero (S := S1x1024) hz]
    exact slice_eq 768 _ x0 x1 x2 x
  · intro x
    dsimp only
    rw [pay6_eq]
    simp only [View.readAt_eq_ld, h1.read_unread, h2.read_unread, h3.read_unread, k0_pay2, k0_pay3, shapeCast_self,
      View.ld_unit_zero (S := S1024x1024) hz, View.ld_unit_zero (S := S1x1024) hz]
    exact slice_eq 512 _ x0 x1 x2 x
  · intro x
    dsimp only
    rw [pay5_eq]
    simp only [View.readAt_eq_ld, h1.read_unread, h2.read_unread, h3.read_unread, k0_pay2, k0_pay3, shapeCast_self,
      View.ld_unit_zero (S := S1024x1024) hz, View.ld_unit_zero (S := S1x1024) hz]
    exact slice_eq 256 _ x0 x1 x2 x
  · intro x
    dsimp only
    rw [pay4_eq]
    simp only [View.readAt_eq_ld, h1.read_unread, h2.read_unread, h3.read_unread, k0_pay2, k0_pay3, shapeCast_self,
      View.ld_unit_zero (S := S1024x1024) hz, View.ld_unit_zero (S := S1x1024) hz]
    exact slice_eq 0 _ x0 x1 x2 x

end Cert.KernelIdeal.Block

end
-- ==== Proof.Region.lean ====
/-
  The region's result array: from blocks to the whole array.

  Point `t` of the grid (32 points) takes rows `1024 t … 1024 t + 1023` of the flat token array, the whole quantised
  weights and the whole bias row, and writes back rows `1024 t …` of the result. What it writes back is the body's
  block function of those three blocks (`Block.out_eq`), which is the block of `Spec.region` of the three arrays as
  the region finds them: a row of a block is a row of the array. Row `r` of the result lies in the block of point
  `r / 1024`, so the blocks cover the array and it ends holding `Spec.region`.
-/
import proofs.«174359_j335007449411_2_alg».proof.Proof.Block

set_option maxRecDepth 16384

noncomputable section

namespace Cert.KernelIdeal.Region

open Cert.KernelIdeal Cert.KernelIdeal.Gen Cert.KernelIdeal.Block
open Idealize.ShloMosaic Idealize.ShloMosaic.TcCoe Idealize.SL.Sem Idealize.ShloMosaic.ValueIdx Cert.Quant Cert.Spec
open Idealize.ShloMosaic.Pipeline (Dat)

variable (m : (ℓ : Loc nD τ sig) → Buf (Elt Ideal) ℓ) (ρ : Dev nD → PrngReg)

/-- The printed index maps over the grid: the token window and the result window move down one block of rows per
    point; the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The region's result as a function of the three arrays the region finds. -/
abbrev result (c : Dev nD) : Buf (Elt Ideal) ((c : Thread nD τ).loc main_v25) :=
  region (V m c main_v0) (V m c main_v23) (V m c main_v24)

/-- What point `t` writes back is block `t` of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold outsAt0
  rw [out_eq]
  obtain ⟨e00, e01, e10, e11, e20, e21, e30, e31⟩ := idx_facts t
  funext j
  have h0 : (fun d : Fin 1024 => iblk m c 0 t (ix2 (j 0) d))
      = row2 (V m c main_v0) ((((cfg0.win 3).blk t).view.emb j) 0) := by
    funext d
    show V m c main_v0 (((cfg0.win 0).blk t).view.emb (ix2 (j 0) d)) = V m c main_v0 (ix2 ((((cfg0.win 3).blk t).view.emb j) 0) d)
    refine congrArg (V m c main_v0) (funext fun a => Fin.ext ?_)
    match a with
    | ⟨0, _⟩ => show win0_0.index t (0 : Fin 2) * 1024 + 1 * (j 0).val = win0_3.index t (0 : Fin 2) * 1024 + 1 * (j 0).val; rw [e00, e30]
    | ⟨1, _⟩ => show win0_0.index t (1 : Fin 2) * 1024 + 1 * d.val = d.val; rw [e01]; omega
  have h1 : ∀ d : Fin 1024, iblk m c 1 t (ix2 (j 1) d) = V m c main_v23 (ix2 ((((cfg0.win 3).blk t).view.emb j) 1) d) := by
    intro d
    show V m c main_v23 (((cfg0.win 1).blk t).view.emb (ix2 (j 1) d)) = _
    refine congrArg (V m c main_v23) (funext fun a => Fin.ext ?_)
    match a with
    | ⟨0, _⟩ => show win0_1.index t (0 : Fin 2) * 1024 + 1 * (j 1).val = win0_3.index t (1 : Fin 2) * 1024 + 1 * (j 1).val; rw [e10, e31]
    | ⟨1, _⟩ => show win0_1.index t (1 : Fin 2) * 1024 + 1 * d.val = d.val; rw [e11]; omega
  have h2 : iblk m c 2 t (ix2 0 (j 1)) = V m c main_v24 (ix2 0 ((((cfg0.win 3).blk t).view.emb j) 1)) := by
    show V m c main_v24 (((cfg0.win 2).blk t).view.emb (ix2 0 (j 1))) = _
    refine congrArg (V m c main_v24) (funext fun a => Fin.ext ?_)
    match a with
    | ⟨0, _⟩ => show win0_2.index t (0 : Fin 2) * 1 + 1 * 0 = 0; rw [e20]
    | ⟨1, _⟩ => show win0_2.index t (1 : Fin 2) * 1024 + 1 * (j 1).val = win0_3.index t (1 : Fin 2) * 1024 + 1 * (j 1).val; rw [e21, e31]
  show (∑ d : Fin 1024, quantRow eps q255 (fun d : Fin 1024 => iblk m c 0 t (ix2 (j 0) d)) d * iblk m c 1 t (ix2 (j 1) d))
      + iblk m c 2 t (ix2 0 (j 1))
    = (∑ d : Fin 1024, quantRow eps q255 (row2 (V m c main_v0) ((((cfg0.win 3).blk t).view.emb j) 0)) d
        * V m c main_v23 (ix2 ((((cfg0.win 3).blk t).view.emb j) 1) d))
      + V m c main_v24 (ix2 0 ((((cfg0.win 3).blk t).view.emb j) 1))
  rw [h0, h2]
  exact congrArg (· + V m c main_v24 (ix2 0 ((((cfg0.win 3).blk t).view.emb j) 1)))
    (Finset.sum_congr rfl fun d _ => by rw [h1 d])

/-- An index of the result is in point `t`'s block iff each coordinate is in the block's range. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v25).slice (win0_3.rect t)).set ↔ _
  rw [View.set_slice_whole, Rect.mem_set_unit]
  exact Iff.rfl

/-- The blocks cover the result: row `r` is in the block of point `r / 1024`. -/
theorem cover (i : S32768x1024.Idx) :
    ∃ t : Fin cfg0.N, (cfg0.win 3).flush t = true ∧ i ∈ ((cfg0.win 3).blk t).view.set := by
  have hN : cfg0.N = 32 := N_0
  have hi0 : (i 0).val < 32768 := (i 0).isLt
  have hi1 : (i 1).val < 1024 := (i 1).isLt
  let t : Fin cfg0.N := ⟨(i 0).val / 1024, by rw [hN]; omega⟩
  refine ⟨t, flush0_3 t, ?_⟩
  obtain ⟨e00, e01, e10, e11, e20, e21, e30, e31⟩ := idx_facts t
  have ht : t.val = (i 0).val / 1024 := rfl
  rw [mem_blk]
  intro a
  match a with
  | ⟨0, _⟩ => show win0_3.index t (0 : Fin 2) * 1024 ≤ (i 0).val ∧ (i 0).val < win0_3.index t (0 : Fin 2) * 1024 + 1024; rw [e30]; omega
  | ⟨1, _⟩ => show win0_3.index t (1 : Fin 2) * 1024 ≤ (i 1).val ∧ (i 1).val < win0_3.index t (1 : Fin 2) * 1024 + 1024; rw [e31]; omega

/-- The result array after the run. -/
theorem final (c : Dev nD) : (dats m 0 c).arrAt 3 cfg0.N = result m c :=
  (dats m 0 c).arrAt_eq_of_cover 3 (result m c) (fun t _ => flushed_eq m c t) (cover)

end Cert.KernelIdeal.Region

end
-- ==== Proof.KernelHost.lean ====
/-
  The host operations around the kernel's region, read as values on the extended reals.

  Before the region the program lays the activations out as [32768, 1024] and the bias as one row [1, 1024] (two
  reshapes), and quantises the weights: per output channel the minimum `lo` (folded from plus infinity) and the maximum
  `hi` (from minus infinity) of its row, the step `s = max (hi - lo) eps / 15`, the zero point `z = round (-lo / s)`,
  and each entry `x` as `(min 15 (max 0 (round (x / s) + z)) - z) * s`, narrowed to a shorter float format, which changes
  nothing on the extended reals. That is `Spec.wq`: each channel's row on its 15-level grid (`Quant.quantRow`), the
  roundings written directly, so no finiteness is needed. After the region the result is laid out as [8, 4096, 1024]
  (one reshape of the region's output array).
-/
import proofs.«174359_j335007449411_2_alg».proof.Proof.Gen.KernelIdeal.Frame
import proofs.«174359_j335007449411_2_alg».proof.Proof.Spec
import proofs.«174359_j335007449411_2_alg».proof.Proof.Consts
import proofs.«174359_j335007449411_2_alg».proof.Proof.StepFacts
import proofs.«174359_j335007449411_2_alg».proof.Proof.Quant
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx
open Cert.Quant Cert.Spec

variable (m : (ℓ : Loc nD τ sig) → Buf (Elt Ideal) ℓ)

/-! ## The two reshapes before the region -/

theorem V_v0 (c : Dev nD) : (V m c main_v0 : S32768x1024.Idx → EReal) = shapeCast S32768x1024 (m ((c : Thread nD τ).loc main_arg0)) shapeCasts_S8x4096x1024_S32768x1024 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_v24 (c : Dev nD) : (V m c main_v24 : S1x1024.Idx → EReal) = shapeCast S1x1024 (m ((c : Thread nD τ).loc main_arg2)) shapeCasts_S1024_S1x1024 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-! ## The weights' quantisation before the region, as composed operations -/

/-- Each channel's minimum, as a column. -/
def hLo (x1 : FVec Ideal S1024x1024 .f32) : FVec Ideal S1024x1 .f32 :=
  broadcastInDim S1024x1 ![0] bcast_S1024_S1024x1_0
    (Host.reduce FloatOps.minimumf x1 (constant (F := Ideal) S_ .f32 0x7F800000#32) reducesTo_S1024x1024_S1024_d1 h_S_)

/-- Each channel's maximum, as a column. -/
def hHi (x1 : FVec Ideal S1024x1024 .f32) : FVec Ideal S1024x1 .f32 :=
  broadcastInDim S1024x1 ![0] bcast_S1024_S1024x1_0
    (Host.reduce FloatOps.maximumf x1 (constant (F := Ideal) S_ .f32 0xFF800000#32) reducesTo_S1024x1024_S1024_d1 h_S_)

/-- Each channel's step, as a column. -/
def hStep (x1 : FVec Ideal S1024x1024 .f32) : FVec Ideal S1024x1 .f32 :=
  Host.divf
    (maximumf (subf (hHi x1) (hLo x1)) (broadcastInDim S1024x1 ![] bcast_S_S1024x1 (constant (F := Ideal) S_ .f32 0x3727C5AC#32)))
    (broadcastInDim S1024x1 ![] bcast_S_S1024x1 (constant (F := Ideal) S_ .f32 0x41700000#32))

/-- Each channel's zero point, as a column. -/
def hZero (x1 : FVec Ideal S1024x1024 .f32) : FVec Ideal S1024x1 .f32 :=
  Host.roundeven (Host.divf (Host.negf (hLo x1)) (hStep x1))

/-- The quantised weights. -/
def hQ (x1 : FVec Ideal S1024x1024 .f32) : FVec Ideal S1024x1024 .bf16 :=
  truncf .bf16
    (mulf
      (subf
        (minimumf
          (broadcastInDim S1024x1024 ![] bcast_S_S1024x1024 (id (constant (F := Ideal) S_ .f32 0x41700000#32)))
          (maximumf
            (broadcastInDim S1024x1024 ![] bcast_S_S1024x1024 (id (constant (F := Ideal) S_ .f32 0x00000000#32)))
            (addf
              (Host.roundeven (Host.divf x1 (broadcastInDim S1024x1024 ![0, 1] bcast_S1024x1_S1024x1024_0_1 (hStep x1))))
              (broadcastInDim S1024x1024 ![0, 1] bcast_S1024x1_S1024x1024_0_1 (hZero x1)))))
        (broadcastInDim S1024x1024 ![0, 1] bcast_S1024x1_S1024x1024_0_1 (hZero x1)))
      (broadcastInDim S1024x1024 ![0, 1] bcast_S1024x1_S1024x1024_0_1 (hStep x1)))
    bitsLt_bf16_f32

/-- The array the region finds as its quantised weights is the composed operations of the launch contents of the weights. -/
theorem V_v23_ops (c : Dev nD) : (V m c main_v23 : S1024x1024.Idx → EReal) = hQ (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-! ## The composed operations read at an index -/

/-- A vector broadcast to a column: the column entry (o, 0) is the vector's entry o. -/
theorem bcast_col_apply {α : Type} (y : S1024.Idx → α) (o : Fin 1024) (z : Fin 1) :
    broadcastInDim S1024x1 ![0] bcast_S1024_S1024x1_0 y (ix2 o z) = y (ix1 o) :=
  broadcastInDim_apply _ bcast_S1024_S1024x1_0 y (ix2 o z) (ix1 o) (fun a => match a with
    | ⟨0, _⟩ => by show o.val = if (1024 : Nat) = 1 then 0 else o.val; rw [if_neg (by decide)])

/-- A scalar broadcast to a column. -/
theorem bcast_scalar_col_apply {α : Type} (y : S_.Idx → α) (i : S1024x1.Idx) :
    broadcastInDim S1024x1 ![] bcast_S_S1024x1 y i = y ix0 :=
  broadcastInDim_apply _ bcast_S_S1024x1 y i ix0 (fun a => a.elim0)

/-- A scalar broadcast to the whole array. -/
theorem bcast_scalar_mat_apply {α : Type} (y : S_.Idx → α) (i : S1024x1024.Idx) :
    broadcastInDim S1024x1024 ![] bcast_S_S1024x1024 y i = y ix0 :=
  broadcastInDim_apply _ bcast_S_S1024x1024 y i ix0 (fun a => a.elim0)

/-- A column broadcast along the rows: the entry (o, d) is the column's entry (o, 0). -/
theorem bcast_row_apply {α : Type} (y : S1024x1.Idx → α) (o d : Fin 1024) :
    broadcastInDim S1024x1024 ![0, 1] bcast_S1024x1_S1024x1024_0_1 y (ix2 o d) = y (ix2 o 0) :=
  broadcastInDim_apply _ bcast_S1024x1_S1024x1024_0_1 y (ix2 o d) (ix2 o 0) (fun a => match a with
    | ⟨0, _⟩ => by show o.val = if (1024 : Nat) = 1 then 0 else o.val; rw [if_neg (by decide)]
    | ⟨1, _⟩ => by show 0 = if (1 : Nat) = 1 then 0 else d.val; rw [if_pos rfl])

/-- Over the weights, the index above channel `o` with feature `k` put on the reduced axis is (o, k). -/
theorem lift_w (h : S1024x1024.Reduces [1] S1024) (o : Fin 1024) (k : Fin 1024) : h.lift (ix1 o) k = ix2 o k :=
  funext fun a => Fin.ext (by match a with | ⟨0, _⟩ => rfl | ⟨1, _⟩ => rfl)

/-- Channel `o`'s minimum. -/
theorem hLo_apply (x1 : FVec Ideal S1024x1024 .f32) (o : Fin 1024) (z : Fin 1) : hLo x1 (ix2 o z) = rowMin (row2 x1 o) := by
  unfold hLo
  rw [bcast_col_apply, Host.reduce_eq_fold_single (f := FloatOps.minimumf) _ _ _ (by decide : S1024x1024.Reduces [1] S1024) _ _]
  have e : (x1 ∘ (by decide : S1024x1024.Reduces [1] S1024).lift (ix1 o)) = row2 x1 o :=
    funext fun k => congrArg x1 (lift_w _ o k)
  rw [e]
  show Finset.fold min (Ideal.ofBits .f32 0x7F800000#32) (row2 x1 o) Finset.univ = _
  rw [Consts.ofBits_pinf]; rfl

/-- Channel `o`'s maximum. -/
theorem hHi_apply (x1 : FVec Ideal S1024x1024 .f32) (o : Fin 1024) (z : Fin 1) : hHi x1 (ix2 o z) = rowMax (row2 x1 o) := by
  unfold hHi
  rw [bcast_col_apply, Host.reduce_eq_fold_single (f := FloatOps.maximumf) _ _ _ (by decide : S1024x1024.Reduces [1] S1024) _ _]
  have e : (x1 ∘ (by decide : S1024x1024.Reduces [1] S1024).lift (ix1 o)) = row2 x1 o :=
    funext fun k => congrArg x1 (lift_w _ o k)
  rw [e]
  show Finset.fold max (Ideal.ofBits .f32 0xFF800000#32) (row2 x1 o) Finset.univ = _
  rw [Consts.ofBits_ninf]; rfl

/-- The host's quotient, negation and rounding, at an index. -/
theorem hostDivf_apply {s : Shape} (a b : FVec Ideal s .f32) (i : s.Idx) : Host.divf a b i = Ideal.div (a i) (b i) := rfl
theorem hostNegf_apply {s : Shape} (a : FVec Ideal s .f32) (i : s.Idx) : Host.negf a i = -(a i) := rfl
theorem hostRoundeven_apply {s : Shape} (a : FVec Ideal s .f32) (i : s.Idx) : Host.roundeven a i = rnd (a i) := rfl

/-- Channel `o`'s step. -/
theorem hStep_apply (x1 : FVec Ideal S1024x1024 .f32) (o : Fin 1024) (z : Fin 1) :
    hStep x1 (ix2 o z) = step (rowMin (row2 x1 o)) (rowMax (row2 x1 o)) eps q15 := by
  unfold hStep
  rw [hostDivf_apply, maximumf_apply, subf_apply, hHi_apply, hLo_apply, bcast_scalar_col_apply, bcast_scalar_col_apply,
    constant_apply, constant_apply]
  rfl

/-- Channel `o`'s zero point. -/
theorem hZero_apply (x1 : FVec Ideal S1024x1024 .f32) (o : Fin 1024) (z : Fin 1) :
    hZero x1 (ix2 o z) = zero (rowMin (row2 x1 o)) (step (rowMin (row2 x1 o)) (rowMax (row2 x1 o)) eps q15) := by
  unfold hZero
  rw [hostRoundeven_apply, hostDivf_apply, hostNegf_apply, hLo_apply, hStep_apply]
  rfl

/-- The quantised weights are each channel's row on its 15-level grid. -/
theorem hQ_apply (x1 : FVec Ideal S1024x1024 .f32) (o d : Fin 1024) :
    hQ x1 (ix2 o d) = quantRow eps q15 (row2 x1 o) d := by
  unfold hQ
  rw [truncf_apply, mulf_apply, subf_apply, minimumf_apply, maximumf_apply, addf_apply, hostRoundeven_apply, hostDivf_apply,
    bcast_scalar_mat_apply, bcast_scalar_mat_apply, bcast_row_apply, bcast_row_apply, hStep_apply, hZero_apply]
  show (min (Ideal.ofBits .f32 0x41700000#32) (max (Ideal.ofBits .f32 0x00000000#32) _) - _) * _ = _
  rw [Consts.ofBits_zero]
  rfl

/-- The region finds, as its quantised weights, each channel's row of the launch weights on its 15-level grid. -/
theorem V_v23 (c : Dev nD) : (V m c main_v23 : S1024x1024.Idx → EReal) = Cert.Spec.wq (m ((c : Thread nD τ).loc main_arg1)) := by
  refine (V_v23_ops m c).trans ?_
  funext i
  obtain ⟨o, d, rfl⟩ : ∃ (o d : Fin 1024), i = ix2 o d := ⟨i 0, i 1, eq_ix2 i⟩
  exact hQ_apply _ o d

/-! ## The reshape after the region -/

/-- The program's result is the region's output array, as it stands after the last grid point, laid out as
    [8, 4096, 1024]. -/
theorem tail_v26 (dats : (p : Fin 1) → (c : Dev nD) → Idealize.ShloMosaic.Pipeline.Dat τ (Elt Ideal) Unit ℕ (UR sig nD τ) ℕ (cfgs p) c) (c : Dev nD) :
    Idealize.ShloMosaic.Pipeline.afterTail₀ cfgs dats 0 (V0 m) [hostOps1] c main_v26
      = shapeCast S8x4096x1024 ((dats 0 c).arrAt 3 cfg0.N) shapeCasts_S32768x1024_S8x4096x1024 := by
  unfold Pipeline.afterTail₀
  show StableHlo.after hostOps1 _ (Proc.devRef .tc main_v26) = _
  after_results
  have e : Pipeline.withArrays (cfgs 0).spec c (V0 m c) (fun w => (dats 0 c).arrAt w (cfgs 0).N) (Proc.devRef .tc main_v25)
      = (dats 0 c).arrAt 3 cfg0.N :=
    Pipeline.withArrays_arr spec0 launch0.win.arr_inj c _ _ 3
  rw [e]
  rfl

end Cert.KernelIdeal.HostValue
end
-- ==== Proof.Reshape.lean ====
/-
  The flat product, folded back, is the specification: token (b, s) of the [8, 4096, 1024] activations is row
  b * 4096 + s of the same entries laid out as [32768, 1024], so the product over flat rows read back at (b, s, o)
  is the inner product of token (b, s)'s and channel o's quantised rows, and the one-row bias read at (0, o) is the
  bias at o.
-/
import proofs.«174359_j335007449411_2_alg».proof.Proof.Spec
import Idealize.ShloMosaic.Lib.Pipeline.Value
import Idealize.ShloMosaic.Lib.ValueLayout

noncomputable section

namespace Cert.Spec

open Idealize.ShloMosaic Idealize.ShloMosaic.ValueIdx Cert.Quant

/-- Row b * 4096 + s of the flat activations is token (b, s). -/
theorem row2_flat (a0 : (⟨3, ![8, 4096, 1024]⟩ : Shape).Idx → EReal)
    (h0 : (⟨3, ![8, 4096, 1024]⟩ : Shape).ShapeCasts ⟨2, ![32768, 1024]⟩) (b : Fin 8) (s : Fin 4096)
    (hr : b.val * 4096 + s.val < 32768) :
    row2 (shapeCast ⟨2, ![32768, 1024]⟩ a0 h0) ⟨b.val * 4096 + s.val, hr⟩ = row3 a0 b s := by
  funext d
  show shapeCast ⟨2, ![32768, 1024]⟩ a0 h0 (ix2 ⟨b.val * 4096 + s.val, hr⟩ d) = a0 (ix3 b s d)
  exact shapeCast_apply a0 h0 _ _ (by rw [Shape.rowMajor_val_two, Shape.rowMajor_val_three]; rfl)

theorem region_reshape (a0 : (⟨3, ![8, 4096, 1024]⟩ : Shape).Idx → EReal) (a1 : (⟨2, ![1024, 1024]⟩ : Shape).Idx → EReal) (a2 : (⟨1, ![1024]⟩ : Shape).Idx → EReal)
    (h0 : (⟨3, ![8, 4096, 1024]⟩ : Shape).ShapeCasts ⟨2, ![32768, 1024]⟩) (h2 : (⟨1, ![1024]⟩ : Shape).ShapeCasts ⟨2, ![1, 1024]⟩) (h3 : (⟨2, ![32768, 1024]⟩ : Shape).ShapeCasts ⟨3, ![8, 4096, 1024]⟩) :
    shapeCast ⟨3, ![8, 4096, 1024]⟩ (region (shapeCast ⟨2, ![32768, 1024]⟩ a0 h0) (wq a1) (shapeCast ⟨2, ![1, 1024]⟩ a2 h2)) h3 = G a0 a1 a2 := by
  funext i
  obtain ⟨b, s, o, rfl⟩ : ∃ (b : Fin 8) (s : Fin 4096) (o : Fin 1024), i = ix3 b s o := ⟨i 0, i 1, i 2, eq_ix3 i⟩
  have hr : b.val * 4096 + s.val < 32768 := by omega
  rw [shapeCast_apply _ h3 (ix3 b s o) (ix2 ⟨b.val * 4096 + s.val, hr⟩ o)
    (by rw [Shape.rowMajor_val_two, Shape.rowMajor_val_three]; rfl)]
  show (∑ d : Fin 1024, quantRow eps q255 (row2 (shapeCast ⟨2, ![32768, 1024]⟩ a0 h0) ⟨b.val * 4096 + s.val, hr⟩) d
        * quantRow eps q15 (row2 a1 o) d) + shapeCast ⟨2, ![1, 1024]⟩ a2 h2 (ix2 0 o)
      = (∑ d : Fin 1024, quantRow eps q255 (row3 a0 b s) d * quantRow eps q15 (row2 a1 o) d) + a2 (ix1 o)
  rw [row2_flat a0 h0 b s hr, shapeCast_a_1a_apply a2 h2 0 o]

end Cert.Spec

end
-- ==== Proof.KernelValue.lean ====
/-
  The idealized kernel's run, read: its result is the specification `Spec.G` of the three argument arrays.

  The program reshapes the activations to a flat array of tokens, quantises the weights row by row, reshapes the bias to
  a row, launches the region, and reshapes the region's result back. The region's array ends holding `Spec.region` of
  those three arrays (`Region.final`); the three arrays are the reshape of the activations, `Spec.wq` of the weights
  and the reshape of the bias (`HostValue.V_v0`, `V_v23`, `V_v24`); and the reshape of the flat product is `Spec.G`
  (`Spec.region_reshape`: token (b, s) is row `4096 b + s`). The argument arrays end as they began.
-/
import proofs.«174359_j335007449411_2_alg».proof.Proof.Region
import proofs.«174359_j335007449411_2_alg».proof.Proof.KernelHost
import proofs.«174359_j335007449411_2_alg».proof.Proof.Reshape

set_option maxRecDepth 16384

noncomputable section

namespace Cert.KernelIdeal.KernelValue

open Cert.KernelIdeal Cert.KernelIdeal.Gen
open Idealize.ShloMosaic Idealize.ShloMosaic.TcCoe Idealize.SL.Sem Cert.Spec

variable (m : (ℓ : Loc nD τ sig) → Buf (Elt Ideal) ℓ) (ρ : Dev nD → PrngReg)

/-- The program's result after the run. -/
theorem result_eq (c : Dev nD) :
    Pipeline.afterTail₀ cfgs (dats m) 0 (V0 m) [hostOps1] c main_v26
      = G (m ((c : Thread nD τ).loc main_arg0)) (m ((c : Thread nD τ).loc main_arg1)) (m ((c : Thread nD τ).loc main_arg2)) := by
  rw [HostValue.tail_v26 m (dats m) c, Region.final m c]
  show shapeCast S8x4096x1024 (region (V m c main_v0) (V m c main_v23) (V m c main_v24)) _ = _
  rw [HostValue.V_v0 m c, HostValue.V_v23 m c, HostValue.V_v24 m c]
  exact region_reshape _ _ _ _ _ _

/-- Every weakly fair execution terminates with the result at `Spec.G` of the arguments and the arguments unchanged. -/
theorem run : θ_run defs (onTc (τ := τ) (main (F := Ideal))) ⟨m, fun _ => 0, ρ⟩ fun r => ∀ c : Dev nD,
      r.2.mem ((c.tc : Thread nD τ).loc main_v26)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v26 (Pipeline.mem_restRefs_of main_v26 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference's result is the specification `Spec.G`, index by index on the extended reals, for finite activations and
  weights.

  Per row (an output channel's 1024 weights, a token's 1024 features) the reference folds the minimum `lo` from plus
  infinity and the maximum `hi` from minus infinity, takes the step `s = max (hi - lo) eps / q`, spells the zero point as
  `a0 + (round a0 - a0)` with `a0 = -lo / s` and each entry's level as `a + (round a - a)` with `a = x / s`, clamps the
  sum of the two between the zero pattern and `q`, and reads the level back as `(level - zero point) * s`. For a finite
  entry and a finite row minimum over a nonzero step both straight-through spellings are the roundings themselves
  (`Quant.ste_div`, `Quant.ste_zero`), the step is never zero (`Quant.step_ne_zero`), and a row of finite entries has a
  finite minimum (`Quant.rowMin_finite`): so the quantised arrays are `Quant.quantRow` of the rows, and the result is
  their inner product over the features plus the bias.
-/
import proofs.«174359_j335007449411_2_alg».proof.Proof.Gen.ReferenceIdeal.Read
import proofs.«174359_j335007449411_2_alg».proof.Proof.Spec
import proofs.«174359_j335007449411_2_alg».proof.Proof.Consts

noncomputable section

namespace Cert.RefValue

open Cert.ReferenceIdeal Cert.ReferenceIdeal.Gen Cert.ReferenceIdeal.Read Idealize.ShloMosaic Idealize.ShloMosaic.ValueIdx Cert.Quant Cert.Spec

/-! ## The four row reductions -/

/-- Over the weights, the index above channel `o` with feature `k` put on the reduced axis is (o, k). -/
theorem lift_w (h : S1024x1024.Reduces [1] S1024) (o : Fin 1024) (k : Fin 1024) : h.lift (ix1 o) k = ix2 o k :=
  funext fun a => Fin.ext (by match a with | ⟨0, _⟩ => rfl | ⟨1, _⟩ => rfl)

/-- The row minimum the reference folds from plus infinity is the row's minimum. -/
theorem w_min (x1 : FVec Ideal S1024x1024 .f32) (o : Fin 1024) :
    val_main_v0 (F := Ideal) x1 (ix1 o) = rowMin (row2 x1 o) := by
  unfold val_main_v0
  rw [Host.reduce_eq_fold_single (f := FloatOps.minimumf) _ _ _ (by decide : S1024x1024.Reduces [1] S1024) _ _]
  have e : (x1 ∘ (by decide : S1024x1024.Reduces [1] S1024).lift (ix1 o)) = row2 x1 o :=
    funext fun k => congrArg x1 (lift_w _ o k)
  rw [e]
  show Finset.fold min (Ideal.ofBits .f32 0x7F800000#32) (row2 x1 o) Finset.univ = _
  rw [Consts.ofBits_pinf]; rfl

/-- The row maximum the reference folds from minus infinity is the row's maximum. -/
theorem w_max (x1 : FVec Ideal S1024x1024 .f32) (o : Fin 1024) :
    val_main_v2 (F := Ideal) x1 (ix1 o) = rowMax (row2 x1 o) := by
  unfold val_main_v2
  rw [Host.reduce_eq_fold_single (f := FloatOps.maximumf) _ _ _ (by decide : S1024x1024.Reduces [1] S1024) _ _]
  have e : (x1 ∘ (by decide : S1024x1024.Reduces [1] S1024).lift (ix1 o)) = row2 x1 o :=
    funext fun k => congrArg x1 (lift_w _ o k)
  rw [e]
  show Finset.fold max (Ideal.ofBits .f32 0xFF800000#32) (row2 x1 o) Finset.univ = _
  rw [Consts.ofBits_ninf]; rfl

/-- Over the activations, the index above token (b, s) with feature `k` put on the reduced axis is (b, s, k). -/
theorem lift_a (h : S8x4096x1024.Reduces [2] S8x4096) (b : Fin 8) (s : Fin 4096) (k : Fin 1024) : h.lift (ix2 b s) k = ix3 b s k :=
  funext fun a => Fin.ext (by match a with | ⟨0, _⟩ => rfl | ⟨1, _⟩ => rfl | ⟨2, _⟩ => rfl)

/-- A token's minimum, folded from plus infinity. -/
theorem a_min (x0 : FVec Ideal S8x4096x1024 .f32) (b : Fin 8) (s : Fin 4096) :
    val_main_v26 (F := Ideal) x0 (ix2 b s) = rowMin (row3 x0 b s) := by
  unfold val_main_v26
  rw [Host.reduce_eq_fold_single (f := FloatOps.minimumf) _ _ _ (by decide : S8x4096x1024.Reduces [2] S8x4096) _ _]
  have e : (x0 ∘ (by decide : S8x4096x1024.Reduces [2] S8x4096).lift (ix2 b s)) = row3 x0 b s :=
    funext fun k => congrArg x0 (lift_a _ b s k)
  rw [e]
  show Finset.fold min (Ideal.ofBits .f32 0x7F800000#32) (row3 x0 b s) Finset.univ = _
  rw [Consts.ofBits_pinf]; rfl

/-- A token's maximum, folded from minus infinity. -/
theorem a_max (x0 : FVec Ideal S8x4096x1024 .f32) (b : Fin 8) (s : Fin 4096) :
    val_main_v28 (F := Ideal) x0 (ix2 b s) = rowMax (row3 x0 b s) := by
  unfold val_main_v28
  rw [Host.reduce_eq_fold_single (f := FloatOps.maximumf) _ _ _ (by decide : S8x4096x1024.Reduces [2] S8x4096) _ _]
  have e : (x0 ∘ (by decide : S8x4096x1024.Reduces [2] S8x4096).lift (ix2 b s)) = row3 x0 b s :=
    funext fun k => congrArg x0 (lift_a _ b s k)
  rw [e]
  show Finset.fold max (Ideal.ofBits .f32 0xFF800000#32) (row3 x0 b s) Finset.univ = _
  rw [Consts.ofBits_ninf]; rfl

/-! ## One entry on the grid, as the reference spells it -/

/-- The reference's spelling of one quantised entry — both roundings written straight through, the clamp between the
    zero pattern and the level count — is the entry on the grid, for a finite entry, a finite row minimum and a nonzero step. -/
theorem ste_quant (x lo s q : EReal) (hx : ∃ r : ℝ, x = (r : EReal)) (hlo : ∃ r : ℝ, lo = (r : EReal)) (hs : s ≠ 0) :
    (min q (max (Ideal.ofBits .f32 0x00000000#32)
        ((Ideal.div x s + (rnd (Ideal.div x s) - Ideal.div x s))
          + (Ideal.div (-lo) s + (rnd (Ideal.div (-lo) s) - Ideal.div (-lo) s))))
      - (Ideal.div (-lo) s + (rnd (Ideal.div (-lo) s) - Ideal.div (-lo) s))) * s
    = deq x lo s q := by
  obtain ⟨r, rfl⟩ := hx
  obtain ⟨l, rfl⟩ := hlo
  rw [ste_div r s hs, ste_zero l s hs, Consts.ofBits_zero]; rfl

/-- The step of a 15-level grid is not zero. -/
theorem step15_ne_zero (lo hi : EReal) : step lo hi eps q15 ≠ 0 := by
  obtain ⟨e, he, hee⟩ := Consts.ofBits_eps
  show step lo hi (Ideal.ofBits .f32 0x3727C5AC#32) (Ideal.ofBits .f32 0x41700000#32) ≠ 0
  rw [hee, Consts.ofBits_15]
  exact step_ne_zero lo hi he (by norm_num)

/-- The step of a 255-level grid is not zero. -/
theorem step255_ne_zero (lo hi : EReal) : step lo hi eps q255 ≠ 0 := by
  obtain ⟨e, he, hee⟩ := Consts.ofBits_eps
  show step lo hi (Ideal.ofBits .f32 0x3727C5AC#32) (Ideal.ofBits .f32 0x437F0000#32) ≠ 0
  rw [hee, Consts.ofBits_255]
  exact step_ne_zero lo hi he (by norm_num)

/-! ## The weights -/

/-- Where the broadcasts of a channel's scalars read their operand: the column entry (o, 0) reads channel `o`, and the
    entry (o, d) reads the column entry (o, 0). -/
theorem idx_v1 (o : Fin 1024) (z : Fin 1) : idx_main_v1 (ix2 o z) = ix1 o :=
  funext fun a => Fin.ext (by match a with | ⟨0, _⟩ => rfl)
theorem idx_v3 (o : Fin 1024) (z : Fin 1) : idx_main_v3 (ix2 o z) = ix1 o :=
  funext fun a => Fin.ext (by match a with | ⟨0, _⟩ => rfl)
theorem idx_v14 (o d : Fin 1024) : idx_main_v14 (ix2 o d) = ix2 o 0 :=
  funext fun a => Fin.ext (by match a with | ⟨0, _⟩ => rfl | ⟨1, _⟩ => rfl)
theorem idx_v19 (o d : Fin 1024) : idx_main_v19 (ix2 o d) = ix2 o 0 :=
  funext fun a => Fin.ext (by match a with | ⟨0, _⟩ => rfl | ⟨1, _⟩ => rfl)
theorem idx_v22 (o d : Fin 1024) : idx_main_v22 (ix2 o d) = ix2 o 0 :=
  funext fun a => Fin.ext (by match a with | ⟨0, _⟩ => rfl | ⟨1, _⟩ => rfl)
theorem idx_v24 (o d : Fin 1024) : idx_main_v24 (ix2 o d) = ix2 o 0 :=
  funext fun a => Fin.ext (by match a with | ⟨0, _⟩ => rfl | ⟨1, _⟩ => rfl)

/-- The step of output channel `o`'s grid. -/
theorem w_step (x1 : FVec Ideal S1024x1024 .f32) (o : Fin 1024) (z : Fin 1) :
    val_main_v8 (F := Ideal) x1 (ix2 o z) = step (rowMin (row2 x1 o)) (rowMax (row2 x1 o)) eps q15 := by
  rw [val_main_v8_apply, val_main_v6_apply, val_main_v4_apply, val_main_v3_apply, val_main_v1_apply, val_main_v5_apply,
    val_main_cst_1_apply, val_main_v7_apply, val_main_cst_2_apply, idx_v1, idx_v3, w_min, w_max]
  rfl

/-- The zero point of output channel `o`'s grid, spelt straight through. -/
theorem w_zero (x1 : FVec Ideal S1024x1024 .f32) (o : Fin 1024) (z : Fin 1) :
    val_main_v13 (F := Ideal) x1 (ix2 o z)
      = Ideal.div (-(rowMin (row2 x1 o))) (step (rowMin (row2 x1 o)) (rowMax (row2 x1 o)) eps q15)
        + (rnd (Ideal.div (-(rowMin (row2 x1 o))) (step (rowMin (row2 x1 o)) (rowMax (row2 x1 o)) eps q15))
          - Ideal.div (-(rowMin (row2 x1 o))) (step (rowMin (row2 x1 o)) (rowMax (row2 x1 o)) eps q15)) := by
  rw [val_main_v13_apply, val_main_v12_apply, val_main_v11_apply, val_main_v10_apply, val_main_v9_apply, val_main_v1_apply,
    idx_v1, w_min, w_step]
  rfl

/-- The quantised weights are each output channel's row on its 15-level grid. -/
theorem w_quant (x1 : FVec Ideal S1024x1024 .f32) (h1 : ∀ i, ∃ r : ℝ, x1 i = (r : EReal)) (o d : Fin 1024) :
    val_main_v25 (F := Ideal) x1 (ix2 o d) = quantRow eps q15 (row2 x1 o) d := by
  rw [val_main_v25_apply, val_main_v23_apply, val_main_v21_apply, val_main_call2_v4_apply, val_main_call2_v3_apply,
    val_main_cst_4_apply, val_main_call2_v2_apply, val_main_call2_v1_apply, val_main_call2_v0_apply, val_main_cst_3_apply,
    val_main_v20_apply, val_main_v18_apply, val_main_v17_apply, val_main_v16_apply, val_main_v15_apply, val_main_v14_apply,
    val_main_v19_apply, val_main_v22_apply, val_main_v24_apply, idx_v14, idx_v19, idx_v22, idx_v24, w_step, w_zero]
  exact ste_quant (x1 (ix2 o d)) (rowMin (row2 x1 o)) _ q15 (h1 _)
    (rowMin_finite (by norm_num) (row2 x1 o) (fun k => h1 (ix2 o k))) (step15_ne_zero _ _)

/-! ## The activations -/

/-- Where the broadcasts of a token's scalars read their operand: (b, s, 0) reads token (b, s), and (b, s, d) reads
    (b, s, 0). -/
theorem idx_v27 (b : Fin 8) (s : Fin 4096) (z : Fin 1) : idx_main_v27 (ix3 b s z) = ix2 b s :=
  funext fun a => Fin.ext (by match a with | ⟨0, _⟩ => rfl | ⟨1, _⟩ => rfl)
theorem idx_v29 (b : Fin 8) (s : Fin 4096) (z : Fin 1) : idx_main_v29 (ix3 b s z) = ix2 b s :=
  funext fun a => Fin.ext (by match a with | ⟨0, _⟩ => rfl | ⟨1, _⟩ => rfl)
theorem idx_v40 (b : Fin 8) (s : Fin 4096) (d : Fin 1024) : idx_main_v40 (ix3 b s d) = ix3 b s 0 :=
  funext fun a => Fin.ext (by match a with | ⟨0, _⟩ => rfl | ⟨1, _⟩ => rfl | ⟨2, _⟩ => rfl)
theorem idx_v45 (b : Fin 8) (s : Fin 4096) (d : Fin 1024) : idx_main_v45 (ix3 b s d) = ix3 b s 0 :=
  funext fun a => Fin.ext (by match a with | ⟨0, _⟩ => rfl | ⟨1, _⟩ => rfl | ⟨2, _⟩ => rfl)
theorem idx_v48 (b : Fin 8) (s : Fin 4096) (d : Fin 1024) : idx_main_v48 (ix3 b s d) = ix3 b s 0 :=
  funext fun a => Fin.ext (by match a with | ⟨0, _⟩ => rfl | ⟨1, _⟩ => rfl | ⟨2, _⟩ => rfl)
theorem idx_v50 (b : Fin 8) (s : Fin 4096) (d : Fin 1024) : idx_main_v50 (ix3 b s d) = ix3 b s 0 :=
  funext fun a => Fin.ext (by match a with | ⟨0, _⟩ => rfl | ⟨1, _⟩ => rfl | ⟨2, _⟩ => rfl)

/-- The step of token (b, s)'s grid. -/
theorem a_step (x0 : FVec Ideal S8x4096x1024 .f32) (b : Fin 8) (s : Fin 4096) (z : Fin 1) :
    val_main_v34 (F := Ideal) x0 (ix3 b s z) = step (rowMin (row3 x0 b s)) (rowMax (row3 x0 b s)) eps q255 := by
  rw [val_main_v34_apply, val_main_v32_apply, val_main_v30_apply, val_main_v29_apply, val_main_v27_apply, val_main_v31_apply,
    val_main_cst_7_apply, val_main_v33_apply, val_main_cst_8_apply, idx_v27, idx_v29, a_min, a_max]
  rfl

/-- The zero point of token (b, s)'s grid, spelt straight through. -/
theorem a_zero (x0 : FVec Ideal S8x4096x1024 .f32) (b : Fin 8) (s : Fin 4096) (z : Fin 1) :
    val_main_v39 (F := Ideal) x0 (ix3 b s z)
      = Ideal.div (-(rowMin (row3 x0 b s))) (step (rowMin (row3 x0 b s)) (rowMax (row3 x0 b s)) eps q255)
        + (rnd (Ideal.div (-(rowMin (row3 x0 b s))) (step (rowMin (row3 x0 b s)) (rowMax (row3 x0 b s)) eps q255))
          - Ideal.div (-(rowMin (row3 x0 b s))) (step (rowMin (row3 x0 b s)) (rowMax (row3 x0 b s)) eps q255)) := by
  rw [val_main_v39_apply, val_main_v38_apply, val_main_v37_apply, val_main_v36_apply, val_main_v35_apply, val_main_v27_apply,
    idx_v27, a_min, a_step]
  rfl

/-- The quantised activations are each token's row on its 255-level grid. -/
theorem a_quant (x0 : FVec Ideal S8x4096x1024 .f32) (h0 : ∀ i, ∃ r : ℝ, x0 i = (r : EReal)) (b : Fin 8) (s : Fin 4096)
    (d : Fin 1024) :
    val_main_v51 (F := Ideal) x0 (ix3 b s d) = quantRow eps q255 (row3 x0 b s) d := by
  rw [val_main_v51_apply, val_main_v49_apply, val_main_v47_apply, val_main_call5_v4_apply, val_main_call5_v3_apply,
    val_main_cst_10_apply, val_main_call5_v2_apply, val_main_call5_v1_apply, val_main_call5_v0_apply, val_main_cst_9_apply,
    val_main_v46_apply, val_main_v44_apply, val_main_v43_apply, val_main_v42_apply, val_main_v41_apply, val_main_v40_apply,
    val_main_v45_apply, val_main_v48_apply, val_main_v50_apply, idx_v40, idx_v45, idx_v48, idx_v50, a_step, a_zero]
  exact ste_quant (x0 (ix3 b s d)) (rowMin (row3 x0 b s)) _ q255 (h0 _)
    (rowMin_finite (by norm_num) (row3 x0 b s) (fun k => h0 (ix3 b s k))) (step255_ne_zero _ _)

/-! ## The product and the bias -/

/-- The product at (b, s, o) pairs the activations at (b, s, k) with the weights at (o, k); the bias is read at `o`. -/
theorem lidx_v52 (b : Fin 8) (s : Fin 4096) (o k : Fin 1024) : lidx_main_v52 (ix3 b s o) k = ix3 b s k :=
  funext fun a => Fin.ext (by match a with | ⟨0, _⟩ => rfl | ⟨1, _⟩ => rfl | ⟨2, _⟩ => rfl)
theorem ridx_v52 (b : Fin 8) (s : Fin 4096) (o k : Fin 1024) : ridx_main_v52 (ix3 b s o) k = ix2 o k :=
  funext fun a => Fin.ext (by match a with | ⟨0, _⟩ => rfl | ⟨1, _⟩ => rfl)
theorem idx_v53_v54 (b : Fin 8) (s : Fin 4096) (o : Fin 1024) : idx_main_v53 (idx_main_v54 (ix3 b s o)) = ix1 o :=
  funext fun a => Fin.ext (by match a with | ⟨0, _⟩ => rfl)

/-- The reference's result is the specification: at (batch, token, channel) the inner product of the token's and the
    channel's quantised rows, plus the channel's bias — for finite activations and weights. -/
theorem ref_eq (x0 : FVec Ideal Cert.ReferenceIdeal.S8x4096x1024 .f32) (x1 : FVec Ideal Cert.ReferenceIdeal.S1024x1024 .f32) (x2 : FVec Ideal Cert.ReferenceIdeal.S1024 .f32)
    (h0 : ∀ i, ∃ r : ℝ, x0 i = (r : EReal)) (h1 : ∀ i, ∃ r : ℝ, x1 i = (r : EReal)) :
    Cert.ReferenceIdeal.Read.val_main_v55 (F := Ideal) x0 x1 x2 = Cert.Spec.G x0 x1 x2 := by
  funext i
  obtain ⟨b, s, o, rfl⟩ : ∃ (b : Fin 8) (s : Fin 4096) (o : Fin 1024), i = ix3 b s o := ⟨i 0, i 1, i 2, eq_ix3 i⟩
  rw [val_main_v55_apply, val_main_v52_apply, val_main_v54_apply, val_main_v53_apply, idx_v53_v54]
  simp only [lidx_v52, ridx_v52, a_quant x0 h0, w_quant x1 h1]
  rfl

end Cert.RefValue
end
-- ==== Proof.Finite.lean ====
/-
  The precondition, read back: each of its three conjuncts says that every entry of one argument array has an absolute
  value below plus infinity, and an extended real with that property is a real number.
-/
import proofs.«174359_j335007449411_2_alg».proof.Pre_finite_inputs
import Idealize.ShloMosaic.Lib.ReduceAll
import Idealize.ShloMosaic.Lib.ValueIdx
import Idealize.ShloMosaic.PureOps.Ideal

namespace Cert.Finite

open Idealize.ShloMosaic Idealize.ShloMosaic.ValueIdx

/-- The scalar shape has one index. -/
instance : Subsingleton Cert.Pre_finite_inputs.S_.Idx := ⟨fun a b => funext fun d => d.elim0⟩

/-- An extended real whose absolute value compares below plus infinity is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  induction x using EReal.rec with
  | bot => simp [Ideal.cmp, Ideal.ofBits, Ideal.ieee] at h
  | top => simp [Ideal.cmp, Ideal.ofBits, Ideal.ieee] at h
  | coe r => exact ⟨r, rfl⟩

theorem finite_of_pre [Cert.Pre_finite_inputs.Facts] (a0 : FVec Ideal Cert.Pre_finite_inputs.S8x4096x1024 .f32) (a1 : FVec Ideal Cert.Pre_finite_inputs.S1024x1024 .f32) (a2 : FVec Ideal Cert.Pre_finite_inputs.S1024 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  refine ⟨fun i => ?_, fun i => ?_, fun i => ?_⟩
  · exact real_of_abs_lt_inf (a0 i) (Host.reduce_andi_all _ _ _ _ _ h0 i)
  · exact real_of_abs_lt_inf (a1 i) (Host.reduce_andi_all _ _ _ _ _ h1 i)
  · exact real_of_abs_lt_inf (a2 i) (Host.reduce_andi_all _ _ _ _ _ h2 i)

end Cert.Finite
-- ==== Proof.lean ====
/- The proof of `Cert.Claim`: the three frames, the idealization, and the equality of the two results.

   Both idealized programs compute, at (batch, token, channel), the inner product over the 1024 features of the token's
   row of activations on its own 255-level grid with the channel's row of weights on its own 15-level grid, plus the
   channel's bias (`Spec.G`). The kernel reaches it block by block: 32 grid points, each four slices of 256 tokens,
   the step's reciprocal multiplied where the reference divides, which is the same extended real because a step is
   never zero. The reference spells each rounding as `a + (round a - a)`, which is the rounding wherever `a` is finite,
   and `a` is finite because the precondition makes every activation and every weight a real number. The frames of the
   two kernel programs are the generated ones; the reference's frame is its generated run with the result dropped;
   the ideal pass rewrote nothing, so `preserves` is `True`. -/
import proofs.«174359_j335007449411_2_alg».proof.Defs
import proofs.«174359_j335007449411_2_alg».proof.Proof.Gen.Kernel
import proofs.«174359_j335007449411_2_alg».proof.Proof.Gen.Kernel.Skeleton
import proofs.«174359_j335007449411_2_alg».proof.Proof.Gen.Kernel.Launch
import proofs.«174359_j335007449411_2_alg».proof.Proof.Gen.Kernel.Points
import proofs.«174359_j335007449411_2_alg».proof.Proof.Gen.Kernel.Frame
import proofs.«174359_j335007449411_2_alg».proof.Proof.Gen.KernelIdeal
import proofs.«174359_j335007449411_2_alg».proof.Proof.Gen.KernelIdeal.Skeleton
import proofs.«174359_j335007449411_2_alg».proof.Proof.Gen.KernelIdeal.Launch
import proofs.«174359_j335007449411_2_alg».proof.Proof.Gen.KernelIdeal.Points
import proofs.«174359_j335007449411_2_alg».proof.Proof.Gen.KernelIdeal.Frame
import proofs.«174359_j335007449411_2_alg».proof.Proof.Gen.ReferenceIdeal
import proofs.«174359_j335007449411_2_alg».proof.Proof.Gen.ReferenceIdeal.Run
import proofs.«174359_j335007449411_2_alg».proof.Proof.Gen.ReferenceIdeal.Read
import proofs.«174359_j335007449411_2_alg».proof.Proof.Gen.Pre_finite_inputs
import proofs.«174359_j335007449411_2_alg».proof.Proof.KernelValue
import proofs.«174359_j335007449411_2_alg».proof.Proof.RefValue
import proofs.«174359_j335007449411_2_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Spec.G` of the kernel's argument arrays: the kernel's by its run read back, the
    reference's by its generated run, the agreement of the arguments, and the finiteness the precondition gives. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, -⟩ := Cert.Finite.finite_of_pre _ _ _ (hpre c)
  rw [Cert.ReferenceIdeal.Read.val_main_v55_eq, (hagree c).1, (hagree c).2.1, (hagree c).2.2]
  exact Cert.RefValue.ref_eq _ _ _ f0 f1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
